-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4000 : Shape := ⟨2, ![50000, 4000]⟩
abbrev S2x1600000 : Shape := ⟨2, ![2, 1600000]⟩
abbrev S4000x16 : Shape := ⟨2, ![4000, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x4000 : S_.BroadcastsInDim S50000x4000 (![] : Fin 0 → Fin S50000x4000.rank)
  reducesTo_S50000x4000_S_d0_1 : S50000x4000.ReducesTo [0, 1] S_
  h_S_ : 0 < S_.numel
  bcast_S_S4000x16 : S_.BroadcastsInDim S4000x16 (![] : Fin 0 → Fin S4000x16.rank)
  reducesTo_S4000x16_S_d0_1 : S4000x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x4000 .f32) (main_arg1 : IVec S2x1600000 32) (main_arg2 : FVec F S4000x16 .f32) (main_arg3 : FVec F S16 .f32) (main_arg4 : FVec F S16x2 .f32) (main_arg5 : FVec F S2 .f32) : IVec S_ 1 :=
  let main_v0 : FVec F S50000x4000 .f32 := Host.absf main_arg0
  let main_cst : FVec F S_ .f32 := constant S_ .f32 0x7F800000#32
  let main_v1 : FVec F S50000x4000 .f32 := broadcastInDim S50000x4000 ![] bcast_S_S50000x4000 main_cst
  let main_v2 : IVec S50000x4000 1 := cmpf .olt main_v0 main_v1
  let main_c : IVec S_ 1 := constantI S_ 1 1#1
  let main_v3 : IVec S_ 1 := (fun x v => Host.reduce IntOp.andi x v reducesTo_S50000x4000_S_d0_1 h_S_) main_v2 main_c
  let main_v4 : FVec F S4000x16 .f32 := Host.absf main_arg2
  let main_cst_0 : FVec F S_ .f32 := constant S_ .f32 0x7F800000#32
  let main_v5 : FVec F S4000x16 .f32 := broadcastInDim S4000x16 ![] bcast_S_S4000x16 main_cst_0
  let main_v6 : IVec S4000x16 1 := cmpf .olt main_v4 main_v5
  let main_c_1 : IVec S_ 1 := constantI S_ 1 1#1
  let main_v7 : IVec S_ 1 := (fun x v => Host.reduce IntOp.andi x v reducesTo_S4000x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S50000x4000 : Shape := ⟨2, ![50000, 4000]⟩
abbrev S2x1600000 : Shape := ⟨2, ![2, 1600000]⟩
abbrev S4000x16 : Shape := ⟨2, ![4000, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S50000x16 : Shape := ⟨2, ![50000, 16]⟩
abbrev S400x4000 : Shape := ⟨2, ![400, 4000]⟩
abbrev S400x16 : Shape := ⟨2, ![400, 16]⟩
abbrev S_ : Shape := ⟨0, ![]⟩
abbrev S50000 : Shape := ⟨1, ![50000]⟩
abbrev S1600000x1 : Shape := ⟨2, ![1600000, 1]⟩
abbrev S1600000x16 : Shape := ⟨2, ![1600000, 16]⟩
abbrev S50000x1 : Shape := ⟨2, ![50000, 1]⟩
abbrev S1x16 : Shape := ⟨2, ![1, 16]⟩
abbrev S50000x2 : Shape := ⟨2, ![50000, 2]⟩
abbrev S400x2 : Shape := ⟨2, ![400, 2]⟩
abbrev S1600000x2 : Shape := ⟨2, ![1600000, 2]⟩
abbrev S1x2 : Shape := ⟨2, ![1, 2]⟩

abbrev nBuf : Space → Nat
  | .hbm => 168
  | .vmem => 10
  | .smem => 0
  | _ => 0

abbrev hbmTy0_0 (i : Nat) : BufTy := match i % 128 with
  | 0 => ⟨S50000x4000, .f32⟩
  | 1 => ⟨S2x1600000, .i32⟩
  | 2 => ⟨S4000x16, .f32⟩
  | 3 => ⟨S16, .f32⟩
  | 4 => ⟨S16x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S50000x16, .f32⟩
  | 11 => ⟨S_, .f32⟩
  | 12 => ⟨S50000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S50000x16, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x16, .f32⟩
  | 61 => ⟨S1600000x16, .f32⟩
  | 62 => ⟨S1600000x16, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S50000x16, .f32⟩
  | 72 => ⟨S50000, .f32⟩
  | 73 => ⟨S50000x1, .f32⟩
  | 74 => ⟨S50000x16, .f32⟩
  | 75 => ⟨S50000x16, .f32⟩
  | 76 => ⟨S50000x16, .f32⟩
  | 77 => ⟨S1x16, .f32⟩
  | 78 => ⟨S50000x16, .f32⟩
  | 79 => ⟨S50000x16, .f32⟩
  | 80 => ⟨S_, .f32⟩
  | 81 => ⟨S50000x16, .f32⟩
  | 82 => ⟨S50000x16, .f32⟩
  | 83 => ⟨S50000x2, .f32⟩
  | 84 => ⟨S_, .f32⟩
  | 85 => ⟨S50000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S50000, .f32⟩
  | 97 => ⟨S_, .f32⟩
  | 98 => ⟨S50000, .f32⟩
  | 99 => ⟨S50000, .f32⟩
  | 100 => ⟨S_, .f32⟩
  | 101 => ⟨S50000, .f32⟩
  | 102 => ⟨S50000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S_, .f32⟩
  | 123 => ⟨S50000x2, .f32⟩
  | 124 => ⟨S1600000x1, .f32⟩
  | 125 => ⟨S_, .i32⟩
  | 126 => ⟨S1600000, .i32⟩
  | 127 => ⟨S1600000, .i1⟩
  | _ => ⟨S50000x4000, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x2, .f32⟩
  | 6 => ⟨S1600000x2, .f32⟩
  | 7 => ⟨S1600000x2, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S50000x2, .f32⟩
  | 17 => ⟨S50000, .f32⟩
  | 18 => ⟨S50000x1, .f32⟩
  | 19 => ⟨S50000x2, .f32⟩
  | 20 => ⟨S50000x2, .f32⟩
  | 21 => ⟨S50000x2, .f32⟩
  | 22 => ⟨S1x2, .f32⟩
  | 23 => ⟨S50000x2, .f32⟩
  | 24 => ⟨S50000x2, .f32⟩
  | 25 => ⟨S_, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x2, .f32⟩
  | 32 => ⟨S50000x2, .f32⟩
  | 33 => ⟨S50000x2, .f32⟩
  | 34 => ⟨S_, .f32⟩
  | 35 => ⟨S50000, .f32⟩
  | 36 => ⟨S50000x1, .f32⟩
  | 37 => ⟨S50000x1, .f32⟩
  | 38 => ⟨S50000x2, .f32⟩
  | 39 => ⟨S50000x2, .f32⟩
  | _ => ⟨S50000x4000, .f32⟩

abbrev hbmTy (i : Nat) : BufTy := match i / 128 with
  | 0 => hbmTy0_0 i
  | 1 => hbmTy0_1 i
  | _ => ⟨S50000x4000, .f32⟩

abbrev bufTy : (tb : Table) → Fin (tcTables nBuf tb) → BufTy
  | .hbm, ⟨i, _⟩ => hbmTy i
  | .local _ .vmem, ⟨0, _⟩ => ⟨S400x4000, .f32⟩
  | .local _ .vmem, ⟨1, _⟩ => ⟨S400x4000, .f32⟩
  | .local _ .vmem, ⟨2, _⟩ => ⟨S4000x16, .f32⟩
  | .local _ .vmem, ⟨3, _⟩ => ⟨S400x16, .f32⟩
  | .local _ .vmem, ⟨4, _⟩ => ⟨S400x16, .f32⟩
  | .local _ .vmem, ⟨5, _⟩ => ⟨S400x16, .f32⟩
  | .local _ .vmem, ⟨6, _⟩ => ⟨S400x16, .f32⟩
  | .local _ .vmem, ⟨7, _⟩ => ⟨S16x2, .f32⟩
  | .local _ .vmem, ⟨8, _⟩ => ⟨S400x2, .f32⟩
  | .local _ .vmem, ⟨9, _⟩ => ⟨S400x2, .f32⟩
  | _, _ => ⟨S50000x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_c_19 : Ref sig .tc := ⟨.hbm, 103, rfl⟩
abbrev main_v74 : Ref sig .tc := ⟨.hbm, 104, rfl⟩
abbrev main_v75 : Ref sig .tc := ⟨.hbm, 105, rfl⟩
abbrev main_c_20 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_21 : Ref sig .tc := ⟨.hbm, 112, rfl⟩
abbrev main_v81 : Ref sig .tc := ⟨.hbm, 113, rfl⟩
abbrev main_v82 : Ref sig .tc := ⟨.hbm, 114, rfl⟩
abbrev main_c_22 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_c_24 : Ref sig .tc := ⟨.hbm, 125, rfl⟩
abbrev main_v91 : Ref sig .tc := ⟨.hbm, 126, rfl⟩
abbrev main_v92 : Ref sig .tc := ⟨.hbm, 127, rfl⟩
abbrev main_c_25 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_26 : Ref sig .tc := ⟨.hbm, 136, rfl⟩
abbrev main_v100 : Ref sig .tc := ⟨.hbm, 137, rfl⟩
abbrev main_v101 : Ref sig .tc := ⟨.hbm, 138, rfl⟩
abbrev main_c_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call1_cst : Ref sig .tc := ⟨.hbm, 153, rfl⟩
abbrev main_call1_v0 : Ref sig .tc := ⟨.hbm, 154, rfl⟩
abbrev main_call1_cst_0 : Ref sig .tc := ⟨.hbm, 155, rfl⟩
abbrev main_call1_v1 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_call1_v5 : Ref sig .tc := ⟨.hbm, 160, rfl⟩
abbrev main_call1_v6 : Ref sig .tc := ⟨.hbm, 161, rfl⟩
abbrev main_call1_cst_1 : Ref sig .tc := ⟨.hbm, 162, rfl⟩
abbrev main_call1_v7 : Ref sig .tc := ⟨.hbm, 163, rfl⟩
abbrev main_call1_v8 : Ref sig .tc := ⟨.hbm, 164, rfl⟩
abbrev main_call1_v9 : Ref sig .tc := ⟨.hbm, 165, rfl⟩
abbrev main_call1_v10 : Ref sig .tc := ⟨.hbm, 166, rfl⟩
abbrev main_v115 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S400x4000_S400x4000_0_0 : ∀ a, (![0, 0] : Fin 2 → Nat) a + S400x4000.size a ≤ S400x4000.size a
  h_S400x4000 : 0 < S400x4000.numel
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  inb_S400x16_S400x16_0_0 : ∀ a, (![0, 0] : Fin 2 → Nat) a + S400x16.size a ≤ S400x16.size a
  h_S400x16 : 0 < S400x16.numel
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x16 : S_.BroadcastsInDim S50000x16 (![] : Fin 0 → Fin S50000x16.rank)
  bcast_S1600000x1_S1600000x16_0_1 : S1600000x1.BroadcastsInDim S1600000x16 (![0, 1] : Fin 2 → Fin S1600000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  shapeCasts_S400x16_S400x16 : S400x16.ShapeCasts S400x16
  inb_S16x2_S16x2_0_0 : ∀ a, (![0, 0] : Fin 2 → Nat) a + S16x2.size a ≤ S16x2.size a
  h_S16x2 : 0 < S16x2.numel
  inb_S400x2_S400x2_0_0 : ∀ a, (![0, 0] : Fin 2 → Nat) a + S400x2.size a ≤ S400x2.size a
  h_S400x2 : 0 < S400x2.numel
  bcast_S_S50000x2 : S_.BroadcastsInDim S50000x2 (![] : Fin 0 → Fin S50000x2.rank)
  bcast_S1600000x1_S1600000x2_0_1 : S1600000x1.BroadcastsInDim S1600000x2 (![0, 1] : Fin 2 → Fin S1600000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  dot_S400x4000_S4000x16_S400x16_1_0_0_1_n_n_wf : DotDims.WF S400x4000 S4000x16 S400x16 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S400x16_S16x2_S400x2_1_0_0_1_n_n_wf : DotDims.WF S400x16 S16x2 S400x2 [1] [0] [0] [1] [] []
  gather_S50000x2_S1600000x1_S1600000x2_1_0_n_n_0_1_12_wf : GatherDims.WF S50000x2 S1600000x1 S1600000x2 [1] [0] [] [0] [] 1 ![1, 2]
  scatter_S50000x2_S1600000x1_S1600000x2_1_0_0_1_wf : ScatterDims.WF S50000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4000.size a ≤ S50000x4000.size a
  hwx0_0 : ∀ i : grid0.Coords, EltTy.bits .f32 = 32 ∨ (Rect.block (s := S50000x4000) S400x4000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S4000x16.size a
  hwx0_1 : ∀ i : grid0.Coords, EltTy.bits .f32 = 32 ∨ (Rect.block (s := S4000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x16.size a ≤ S50000x16.size a
  hwx0_2 : ∀ i : grid0.Coords, EltTy.bits .f32 = 32 ∨ (Rect.block (s := S50000x16) S400x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x16.size a ≤ S50000x16.size a
  hwx1_0 : ∀ i : grid1.Coords, EltTy.bits .f32 = 32 ∨ (Rect.block (s := S50000x16) S400x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x2.size a ≤ S50000x2.size a
  hwx1_2 : ∀ i : grid1.Coords, EltTy.bits .f32 = 32 ∨ (Rect.block (s := S50000x2) S400x2.size (cc1_transform_2 i) (hinb1_2 i)).WholeWords (EltTy.packing .f32)

variable [Facts₀]

def dot_S400x4000_S4000x16_S400x16_1_0_0_1_n_n : DotDims S400x4000 S4000x16 S400x16 where
  lhsContracting := [1]
  rhsContracting := [0]
  lhsNonContracting := [0]
  rhsNonContracting := [1]
  lhsBatch := []
  rhsBatch := []
  wf := dot_S400x4000_S4000x16_S400x16_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S400x16_S16x2_S400x2_1_0_0_1_n_n : DotDims S400x16 S16x2 S400x2 where
  lhsContracting := [1]
  rhsContracting := [0]
  lhsNonContracting := [0]
  rhsNonContracting := [1]
  lhsBatch := []
  rhsBatch := []
  wf := dot_S400x16_S16x2_S400x2_1_0_0_1_n_n_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf

abbrev win0_0 : Pipeline.Window sig grid0 :=
  Pipeline.Window.ofSpec (Memref.whole main_arg0) S400x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S400x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S400x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x4000 : Shape := ⟨2, ![50000, 4000]⟩
abbrev S2x1600000 : Shape := ⟨2, ![2, 1600000]⟩
abbrev S4000x16 : Shape := ⟨2, ![4000, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S50000x16 : Shape := ⟨2, ![50000, 16]⟩
abbrev S_ : Shape := ⟨0, ![]⟩
abbrev S50000 : Shape := ⟨1, ![50000]⟩
abbrev S1600000x1 : Shape := ⟨2, ![1600000, 1]⟩
abbrev S1600000x16 : Shape := ⟨2, ![1600000, 16]⟩
abbrev S50000x1 : Shape := ⟨2, ![50000, 1]⟩
abbrev S1x16 : Shape := ⟨2, ![1, 16]⟩
abbrev S50000x2 : Shape := ⟨2, ![50000, 2]⟩
abbrev S1600000x2 : Shape := ⟨2, ![1600000, 2]⟩
abbrev S1x2 : Shape := ⟨2, ![1, 2]⟩

abbrev nBuf : Space → Nat
  | .hbm => 168
  | .vmem => 0
  | .smem => 0
  | _ => 0

abbrev hbmTy0_0 (i : Nat) : BufTy := match i % 128 with
  | 0 => ⟨S50000x4000, .f32⟩
  | 1 => ⟨S2x1600000, .i32⟩
  | 2 => ⟨S4000x16, .f32⟩
  | 3 => ⟨S16, .f32⟩
  | 4 => ⟨S16x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S50000x16, .f32⟩
  | 11 => ⟨S_, .f32⟩
  | 12 => ⟨S50000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S50000x16, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x16, .f32⟩
  | 61 => ⟨S1600000x16, .f32⟩
  | 62 => ⟨S1600000x16, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S50000x16, .f32⟩
  | 72 => ⟨S50000, .f32⟩
  | 73 => ⟨S50000x1, .f32⟩
  | 74 => ⟨S50000x16, .f32⟩
  | 75 => ⟨S50000x16, .f32⟩
  | 76 => ⟨S50000x16, .f32⟩
  | 77 => ⟨S1x16, .f32⟩
  | 78 => ⟨S50000x16, .f32⟩
  | 79 => ⟨S50000x16, .f32⟩
  | 80 => ⟨S_, .f32⟩
  | 81 => ⟨S50000x16, .f32⟩
  | 82 => ⟨S50000x16, .f32⟩
  | 83 => ⟨S50000x2, .f32⟩
  | 84 => ⟨S_, .f32⟩
  | 85 => ⟨S50000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S50000, .f32⟩
  | 97 => ⟨S_, .f32⟩
  | 98 => ⟨S50000, .f32⟩
  | 99 => ⟨S50000, .f32⟩
  | 100 => ⟨S_, .f32⟩
  | 101 => ⟨S50000, .f32⟩
  | 102 => ⟨S50000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S_, .f32⟩
  | 123 => ⟨S50000x2, .f32⟩
  | 124 => ⟨S1600000x1, .f32⟩
  | 125 => ⟨S_, .i32⟩
  | 126 => ⟨S1600000, .i32⟩
  | 127 => ⟨S1600000, .i1⟩
  | _ => ⟨S50000x4000, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x2, .f32⟩
  | 6 => ⟨S1600000x2, .f32⟩
  | 7 => ⟨S1600000x2, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S50000x2, .f32⟩
  | 17 => ⟨S50000, .f32⟩
  | 18 => ⟨S50000x1, .f32⟩
  | 19 => ⟨S50000x2, .f32⟩
  | 20 => ⟨S50000x2, .f32⟩
  | 21 => ⟨S50000x2, .f32⟩
  | 22 => ⟨S1x2, .f32⟩
  | 23 => ⟨S50000x2, .f32⟩
  | 24 => ⟨S50000x2, .f32⟩
  | 25 => ⟨S_, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x2, .f32⟩
  | 32 => ⟨S50000x2, .f32⟩
  | 33 => ⟨S50000x2, .f32⟩
  | 34 => ⟨S_, .f32⟩
  | 35 => ⟨S50000, .f32⟩
  | 36 => ⟨S50000x1, .f32⟩
  | 37 => ⟨S50000x1, .f32⟩
  | 38 => ⟨S50000x2, .f32⟩
  | 39 => ⟨S50000x2, .f32⟩
  | _ => ⟨S50000x4000, .f32⟩

abbrev hbmTy (i : Nat) : BufTy := match i / 128 with
  | 0 => hbmTy0_0 i
  | 1 => hbmTy0_1 i
  | _ => ⟨S50000x4000, .f32⟩

abbrev bufTy : (tb : Table) → Fin (tcTables nBuf tb) → BufTy
  | .hbm, ⟨i, _⟩ => hbmTy i
  | _, _ => ⟨S50000x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_c_19 : Ref sig .tc := ⟨.hbm, 103, rfl⟩
abbrev main_v74 : Ref sig .tc := ⟨.hbm, 104, rfl⟩
abbrev main_v75 : Ref sig .tc := ⟨.hbm, 105, rfl⟩
abbrev main_c_20 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_21 : Ref sig .tc := ⟨.hbm, 112, rfl⟩
abbrev main_v81 : Ref sig .tc := ⟨.hbm, 113, rfl⟩
abbrev main_v82 : Ref sig .tc := ⟨.hbm, 114, rfl⟩
abbrev main_c_22 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_c_24 : Ref sig .tc := ⟨.hbm, 125, rfl⟩
abbrev main_v91 : Ref sig .tc := ⟨.hbm, 126, rfl⟩
abbrev main_v92 : Ref sig .tc := ⟨.hbm, 127, rfl⟩
abbrev main_c_25 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_26 : Ref sig .tc := ⟨.hbm, 136, rfl⟩
abbrev main_v100 : Ref sig .tc := ⟨.hbm, 137, rfl⟩
abbrev main_v101 : Ref sig .tc := ⟨.hbm, 138, rfl⟩
abbrev main_c_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call1_cst : Ref sig .tc := ⟨.hbm, 153, rfl⟩
abbrev main_call1_v0 : Ref sig .tc := ⟨.hbm, 154, rfl⟩
abbrev main_call1_cst_0 : Ref sig .tc := ⟨.hbm, 155, rfl⟩
abbrev main_call1_v1 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_call1_v5 : Ref sig .tc := ⟨.hbm, 160, rfl⟩
abbrev main_call1_v6 : Ref sig .tc := ⟨.hbm, 161, rfl⟩
abbrev main_call1_cst_1 : Ref sig .tc := ⟨.hbm, 162, rfl⟩
abbrev main_call1_v7 : Ref sig .tc := ⟨.hbm, 163, rfl⟩
abbrev main_call1_v8 : Ref sig .tc := ⟨.hbm, 164, rfl⟩
abbrev main_call1_v9 : Ref sig .tc := ⟨.hbm, 165, rfl⟩
abbrev main_call1_v10 : Ref sig .tc := ⟨.hbm, 166, rfl⟩
abbrev main_v115 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x16 : S_.BroadcastsInDim S50000x16 (![] : Fin 0 → Fin S50000x16.rank)
  bcast_S1600000x1_S1600000x16_0_1 : S1600000x1.BroadcastsInDim S1600000x16 (![0, 1] : Fin 2 → Fin S1600000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x2 : S_.BroadcastsInDim S50000x2 (![] : Fin 0 → Fin S50000x2.rank)
  bcast_S1600000x1_S1600000x2_0_1 : S1600000x1.BroadcastsInDim S1600000x2 (![0, 1] : Fin 2 → Fin S1600000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  dot_S50000x4000_S4000x16_S50000x16_1_0_0_1_n_n_wf : DotDims.WF S50000x4000 S4000x16 S50000x16 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S50000x16_S16x2_S50000x2_1_0_0_1_n_n_wf : DotDims.WF S50000x16 S16x2 S50000x2 [1] [0] [0] [1] [] []
  gather_S50000x2_S1600000x1_S1600000x2_1_0_n_n_0_1_12_wf : GatherDims.WF S50000x2 S1600000x1 S1600000x2 [1] [0] [] [0] [] 1 ![1, 2]
  scatter_S50000x2_S1600000x1_S1600000x2_1_0_0_1_wf : ScatterDims.WF S50000x2 S1600000x1 S1600000x2 [1] [0] [0] 1

variable [Facts₀]

def dot_S50000x4000_S4000x16_S50000x16_1_0_0_1_n_n : DotDims S50000x4000 S4000x16 S50000x16 where
  lhsContracting := [1]
  rhsContracting := [0]
  lhsNonContracting := [0]
  rhsNonContracting := [1]
  lhsBatch := []
  rhsBatch := []
  wf := dot_S50000x4000_S4000x16_S50000x16_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf

class Facts : Prop extends Facts₀ where

variable [Facts]
-- ==== Proof.KernelRun.lean ====
/-
  The kernel program's run, with its result named.

  The program is seven stretches in order: host operations, the first matrix-unit region, two stretches of host
  operations, the second region, two more stretches. Run from any memory, every weakly fair execution ends, and at the
  end every buffer of the program that outlives a region holds what the fold of those seven steps over the launch
  memory leaves there. Two readings of that end state are used: the six argument arrays hold what they held at launch,
  and the result array holds the fold's value at the result buffer.
-/
import proofs.«120091_j40054865002827_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with every buffer that outlives a region at the contents the
    seven steps' fold leaves. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result array and at the six argument arrays. -/
theorem run : θ_run defs (onTc (τ := τ) (main (F := F))) ⟨m, fun _ => 0, ρ⟩ (fun r => ∀ c : Dev nD,
      r.2.mem ((c.tc : Thread nD τ).loc main_v115) = W7 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v115 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_held m ρ)

end Cert.KernelIdeal.RunValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«120091_j40054865002827_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.Products.lean ====
/-
  The two matrix products of a two-layer graph convolution, entry by entry over the extended reals.

  Each layer multiplies the node features by a weight matrix. The kernel does it one block of 400 rows at a time: it
  changes the block's and the weights' float format (the identity on the extended reals) and multiplies them on the
  matrix unit into a zero accumulator. The reference multiplies the whole arrays at once. Entry (p, q) of either is the
  same finite sum, Σ n, x (p, n) · w (n, q): no order of accumulation and no finiteness is involved.
-/
import proofs.«120091_j40054865002827_1_alg».proof.Proof.Gen.KernelIdeal.Skeleton
import proofs.«120091_j40054865002827_1_alg».proof.Proof.Gen.ReferenceIdeal
import proofs.«120091_j40054865002827_1_alg».proof.Proof.LibDenseBlock
import proofs.«120091_j40054865002827_1_alg».proof.Proof.LibDenseHost
import Idealize.ShloMosaic.Lib.Pipeline.Value

noncomputable section

namespace Cert.Bridge

open Idealize.ShloMosaic Idealize.ShloMosaic.ValueIdx Idealize.ShloMosaic.DenseBlock

/-- The first layer's product of the whole arrays: features [50000, 4000] by weights [4000, 16]. -/
def hostProd1 (x : FVec Ideal Cert.ReferenceIdeal.S50000x4000 .f32) (w : FVec Ideal Cert.ReferenceIdeal.S4000x16 .f32) : FVec Ideal Cert.ReferenceIdeal.S50000x16 .f32 :=
  Host.dotGeneral (F := Ideal) Cert.ReferenceIdeal.dot_S50000x4000_S4000x16_S50000x16_1_0_0_1_n_n none x w

/-- The second layer's product of the whole arrays: hidden features [50000, 16] by weights [16, 2]. -/
def hostProd2 (x : FVec Ideal Cert.ReferenceIdeal.S50000x16 .f32) (w : FVec Ideal Cert.ReferenceIdeal.S16x2 .f32) : FVec Ideal Cert.ReferenceIdeal.S50000x2 .f32 :=
  Host.dotGeneral (F := Ideal) Cert.ReferenceIdeal.dot_S50000x16_S16x2_S50000x2_1_0_0_1_n_n none x w

/-- Entry (i, q) of the first whole product is Σ n, x (i, n) · w (n, q). -/
theorem hostProd1_apply (x : FVec Ideal Cert.ReferenceIdeal.S50000x4000 .f32) (w : FVec Ideal Cert.ReferenceIdeal.S4000x16 .f32) (i : Fin 50000) (q : Fin 16) :
    hostProd1 x w (ix2 i q) = ∑ n : Fin 4000, x (ix2 i n) * w (ix2 n q) := by
  unfold hostProd1
  exact dotGeneral_apply_ix2 (K := 50000) (N := 4000) (Q := 16)
    Cert.ReferenceIdeal.Facts₀.dot_S50000x4000_S4000x16_S50000x16_1_0_0_1_n_n_wf .single x w i q

/-- Entry (i, q) of the second whole product is Σ n, x (i, n) · w (n, q). -/
theorem hostProd2_apply (x : FVec Ideal Cert.ReferenceIdeal.S50000x16 .f32) (w : FVec Ideal Cert.ReferenceIdeal.S16x2 .f32) (i : Fin 50000) (q : Fin 2) :
    hostProd2 x w (ix2 i q) = ∑ n : Fin 16, x (ix2 i n) * w (ix2 n q) := by
  unfold hostProd2
  exact dotGeneral_apply_ix2 (K := 50000) (N := 16) (Q := 2)
    Cert.ReferenceIdeal.Facts₀.dot_S50000x16_S16x2_S50000x2_1_0_0_1_n_n_wf .single x w i q

/-- Entry (p, q) of what the first kernel stores for a block of 400 rows: Σ n, block (p, n) · w (n, q). -/
theorem block1_apply (x0 : Vec Ideal Cert.KernelIdeal.S400x4000 .f32) (x1 : Vec Ideal Cert.KernelIdeal.S4000x16 .f32) (p : Fin 400) (q : Fin 16) :
    Cert.KernelIdeal.Gen.k0_pay1 (F := Ideal) x0 x1 (ix2 p q) = ∑ n : Fin 4000, x0 (ix2 p n) * x1 (ix2 n q) := by
  unfold Cert.KernelIdeal.Gen.k0_pay1
  exact matmul_zero_apply (K := 400) (N := 4000) (Q := 16)
    Cert.KernelIdeal.Facts₀.dot_S400x4000_S4000x16_S400x16_1_0_0_1_n_n_wf (φ₁ := .bf16) (φ₂ := .bf16) _ _ p q

/-- Entry (p, q) of what the second kernel stores for a block of 400 rows: Σ n, block (p, n) · w (n, q). -/
theorem block2_apply (x0 : Vec Ideal Cert.KernelIdeal.S400x16 .f32) (x1 : Vec Ideal Cert.KernelIdeal.S16x2 .f32) (p : Fin 400) (q : Fin 2) :
    Cert.KernelIdeal.Gen.k1_pay1 (F := Ideal) x0 x1 (ix2 p q) = ∑ n : Fin 16, x0 (ix2 p n) * x1 (ix2 n q) := by
  unfold Cert.KernelIdeal.Gen.k1_pay1
  refine (matmul_zero_apply (K := 400) (N := 16) (Q := 2)
    Cert.KernelIdeal.Facts₀.dot_S400x16_S16x2_S400x2_1_0_0_1_n_n_wf (φ₁ := .bf16) (φ₂ := .bf16) _ _ p q).trans ?_
  refine Finset.sum_congr rfl fun n _ => ?_
  show shapeCast Cert.KernelIdeal.S400x16 x0 Cert.KernelIdeal.Facts₀.shapeCasts_S400x16_S400x16 (ix2 p n) * x1 (ix2 n q) = x0 (ix2 p n) * x1 (ix2 n q)
  rw [shapeCast_self]

/-- Block `b` of the first product: when a block of 400 rows holds rows 400·b … 400·b + 399 of the features, what the
    kernel stores for it is those rows of the whole product. -/
theorem rows1_eq (x : FVec Ideal Cert.ReferenceIdeal.S50000x4000 .f32) (w : FVec Ideal Cert.ReferenceIdeal.S4000x16 .f32)
    (x0 : Vec Ideal Cert.KernelIdeal.S400x4000 .f32) (x1 : Vec Ideal Cert.KernelIdeal.S4000x16 .f32) (b : Nat) (hb : b < 125)
    (h0 : ∀ (p : Fin 400) (n : Fin 4000), x0 (ix2 p n) = x (ix2 (⟨b * 400 + p.val, by omega⟩ : Fin 50000) n))
    (h1 : ∀ (n : Fin 4000) (q : Fin 16), x1 (ix2 n q) = w (ix2 n q)) (p : Fin 400) (q : Fin 16) :
    Cert.KernelIdeal.Gen.k0_pay1 (F := Ideal) x0 x1 (ix2 p q) = hostProd1 x w (ix2 (⟨b * 400 + p.val, by omega⟩ : Fin 50000) q) := by
  rw [block1_apply, hostProd1_apply]
  exact Finset.sum_congr rfl fun n _ => by rw [h0, h1]

/-- Block `b` of the second product, likewise. -/
theorem rows2_eq (x : FVec Ideal Cert.ReferenceIdeal.S50000x16 .f32) (w : FVec Ideal Cert.ReferenceIdeal.S16x2 .f32)
    (x0 : Vec Ideal Cert.KernelIdeal.S400x16 .f32) (x1 : Vec Ideal Cert.KernelIdeal.S16x2 .f32) (b : Nat) (hb : b < 125)
    (h0 : ∀ (p : Fin 400) (n : Fin 16), x0 (ix2 p n) = x (ix2 (⟨b * 400 + p.val, by omega⟩ : Fin 50000) n))
    (h1 : ∀ (n : Fin 16) (q : Fin 2), x1 (ix2 n q) = w (ix2 n q)) (p : Fin 400) (q : Fin 2) :
    Cert.KernelIdeal.Gen.k1_pay1 (F := Ideal) x0 x1 (ix2 p q) = hostProd2 x w (ix2 (⟨b * 400 + p.val, by omega⟩ : Fin 50000) q) := by
  rw [block2_apply, hostProd2_apply]
  exact Finset.sum_congr rfl fun n _ => by rw [h0, h1]

end Cert.Bridge

end
-- ==== Proof.RegionValue.lean ====
/-
  What each kernel region leaves in its output array.

  Each region runs the matrix-unit kernel over 125 blocks of 400 rows: at block t the first window holds rows
  400·t … 400·t + 399 of the left array, the second window the whole right array, and the kernel's one store writes the
  block's product into rows 400·t … 400·t + 399 of the output. Every row of the output lies in exactly one block
  (row r in block r / 400), so after the last block the output array is the product of the two whole arrays, entry by
  entry — whatever the arrays held when the region was entered.
-/
import proofs.«120091_j40054865002827_1_alg».proof.Proof.Gen.KernelIdeal.Frame
import proofs.«120091_j40054865002827_1_alg».proof.Proof.Products
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-! ## Region 0: features [50000, 4000] by weights [4000, 16] -/

/-- The printed index maps over the grid: the left and the output blocks move down one block of rows per point, the
    right operand's block stays. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region found. -/
theorem flushed0_eq (c : Dev nD) (t : Fin cfg0.N) :
    (dat0 V c).flushed 2 t
      = ((cfg0.win 2).blk t).view.read (Elt Ideal) (Cert.Bridge.hostProd1 (V c main_arg0) (V c main_arg2)) := by
  show (cfg0.win 2).cut (grid0.coords t) ((dat0 V c).after 2 t) = _
  rw [after0_2]
  unfold out0_2
  rw [View.canon_unit_zero origin]
  simp only [View.ld_unit_zero (S := S400x4000) origin, View.ld_unit_zero (S := S4000x16) origin]
  obtain ⟨e0, e1, e2, e3, e4, e5⟩ := blocks0 t
  have ht : t.val < 125 := Nat.lt_of_lt_of_eq t.isLt (show cfg0.N = 125 from N_0)
  funext y
  obtain ⟨p, q, rfl⟩ : ∃ (p : Fin 400) (q : Fin 16), y = ix2 p q := ⟨y 0, y 1, eq_ix2 y⟩
  show k0_pay1 (F := Ideal) (iblk0 V c 0 t) (iblk0 V c 1 t) (ix2 p q)
    = Cert.Bridge.hostProd1 (V c main_arg0) (V c main_arg2) (((cfg0.win 2).blk t).view.emb (ix2 p q))
  refine (Cert.Bridge.rows1_eq (V c main_arg0) (V c main_arg2) (iblk0 V c 0 t) (iblk0 V c 1 t) t.val ht ?_ ?_ p q).trans ?_
  · intro p n
    show V c main_arg0 (((cfg0.win 0).blk t).view.emb (ix2 p n)) = V c main_arg0 _
    refine congrArg _ (funext fun a => Fin.ext ?_)
    match a with
    | ⟨0, _⟩ => show win0_0.index t (0 : Fin 2) * 400 + 1 * p.val = t.val * 400 + p.val; omega
    | ⟨1, _⟩ => show win0_0.index t (1 : Fin 2) * 4000 + 1 * n.val = n.val; omega
  · intro n q
    show V c main_arg2 (((cfg0.win 1).blk t).view.emb (ix2 n q)) = V c main_arg2 _
    refine congrArg _ (funext fun a => Fin.ext ?_)
    match a with
    | ⟨0, _⟩ => show win0_1.index t (0 : Fin 2) * 4000 + 1 * n.val = n.val; omega
    | ⟨1, _⟩ => show win0_1.index t (1 : Fin 2) * 16 + 1 * q.val = q.val; omega
  · refine congrArg _ (funext fun a => Fin.ext ?_)
    match a with
    | ⟨0, _⟩ => show t.val * 400 + p.val = win0_2.index t (0 : Fin 2) * 400 + 1 * p.val; omega
    | ⟨1, _⟩ => show q.val = win0_2.index t (1 : Fin 2) * 16 + 1 * q.val; omega

/-- An entry of the output lies in point `t`'s block iff each coordinate lies in the block's range on its axis. -/
theorem mem_blk0 (t : Fin cfg0.N) (i : S50000x16.Idx) :
    i ∈ ((cfg0.win 2).blk t).view.set ↔ ∀ a : Fin 2, win0_2.index t a * S400x16.size a ≤ (i a).val ∧ (i a).val < win0_2.index t a * S400x16.size a + S400x16.size a := by
  show i ∈ ((View.whole main_v4).slice (win0_2.rect t)).set ↔ _
  rw [View.set_slice_whole, Rect.mem_set_unit]
  exact Iff.rfl

/-- Row `r` of the output is written back by point `r / 400`. -/
theorem cover0 (i : S50000x16.Idx) :
    ∃ t : Fin cfg0.N, (cfg0.win 2).flush t = true ∧ i ∈ ((cfg0.win 2).blk t).view.set := by
  have hi0 : (i 0).val < 50000 := (i 0).isLt
  have hi1 : (i 1).val < 16 := (i 1).isLt
  have hN : cfg0.N = 125 := N_0
  have hlt : (i 0).val / 400 < cfg0.N := by rw [hN]; omega
  obtain ⟨e0, e1, e2, e3, e4, e5⟩ := blocks0 ⟨(i 0).val / 400, hlt⟩
  have e4' : win0_2.index ⟨(i 0).val / 400, hlt⟩ (0 : Fin 2) = (i 0).val / 400 := e4
  refine ⟨⟨(i 0).val / 400, hlt⟩, flush0_2 _, ?_⟩
  rw [mem_blk0]
  intro a
  match a with
  | ⟨0, _⟩ =>
    show win0_2.index ⟨(i 0).val / 400, hlt⟩ (0 : Fin 2) * 400 ≤ (i 0).val ∧ (i 0).val < win0_2.index ⟨(i 0).val / 400, hlt⟩ (0 : Fin 2) * 400 + 400
    omega
  | ⟨1, _⟩ =>
    show win0_2.index ⟨(i 0).val / 400, hlt⟩ (1 : Fin 2) * 16 ≤ (i 1).val ∧ (i 1).val < win0_2.index ⟨(i 0).val / 400, hlt⟩ (1 : Fin 2) * 16 + 16
    omega

/-- After region 0 its output array is the whole product of the two arrays it found. -/
theorem final0 (c : Dev nD) :
    (dat0 V c).arrAt 2 cfg0.N = Cert.Bridge.hostProd1 (V c main_arg0) (V c main_arg2) :=
  (dat0 V c).arrAt_eq_of_cover 2 _ (fun t _ => flushed0_eq V c t) cover0

/-! ## Region 1: hidden features [50000, 16] by weights [16, 2] -/

/-- The printed index maps over the grid, as in region 0. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region found. -/
theorem flushed1_eq (c : Dev nD) (t : Fin cfg1.N) :
    (dat1 V c).flushed 2 t
      = ((cfg1.win 2).blk t).view.read (Elt Ideal) (Cert.Bridge.hostProd2 (V c main_v59) (V c main_arg4)) := by
  show (cfg1.win 2).cut (grid1.coords t) ((dat1 V c).after 2 t) = _
  rw [after1_2]
  unfold out1_2
  rw [View.canon_unit_zero origin]
  simp only [View.ld_unit_zero (S := S400x16) origin, View.ld_unit_zero (S := S16x2) origin]
  obtain ⟨e0, e1, e2, e3, e4, e5⟩ := blocks1 t
  have ht : t.val < 125 := Nat.lt_of_lt_of_eq t.isLt (show cfg1.N = 125 from N_1)
  funext y
  obtain ⟨p, q, rfl⟩ : ∃ (p : Fin 400) (q : Fin 2), y = ix2 p q := ⟨y 0, y 1, eq_ix2 y⟩
  show k1_pay1 (F := Ideal) (iblk1 V c 0 t) (iblk1 V c 1 t) (ix2 p q)
    = Cert.Bridge.hostProd2 (V c main_v59) (V c main_arg4) (((cfg1.win 2).blk t).view.emb (ix2 p q))
  refine (Cert.Bridge.rows2_eq (V c main_v59) (V c main_arg4) (iblk1 V c 0 t) (iblk1 V c 1 t) t.val ht ?_ ?_ p q).trans ?_
  · intro p n
    show V c main_v59 (((cfg1.win 0).blk t).view.emb (ix2 p n)) = V c main_v59 _
    refine congrArg _ (funext fun a => Fin.ext ?_)
    match a with
    | ⟨0, _⟩ => show win1_0.index t (0 : Fin 2) * 400 + 1 * p.val = t.val * 400 + p.val; omega
    | ⟨1, _⟩ => show win1_0.index t (1 : Fin 2) * 16 + 1 * n.val = n.val; omega
  · intro n q
    show V c main_arg4 (((cfg1.win 1).blk t).view.emb (ix2 n q)) = V c main_arg4 _
    refine congrArg _ (funext fun a => Fin.ext ?_)
    match a with
    | ⟨0, _⟩ => show win1_1.index t (0 : Fin 2) * 16 + 1 * n.val = n.val; omega
    | ⟨1, _⟩ => show win1_1.index t (1 : Fin 2) * 2 + 1 * q.val = q.val; omega
  · refine congrArg _ (funext fun a => Fin.ext ?_)
    match a with
    | ⟨0, _⟩ => show t.val * 400 + p.val = win1_2.index t (0 : Fin 2) * 400 + 1 * p.val; omega
    | ⟨1, _⟩ => show q.val = win1_2.index t (1 : Fin 2) * 2 + 1 * q.val; omega

/-- An entry of the output lies in point `t`'s block iff each coordinate lies in the block's range on its axis. -/
theorem mem_blk1 (t : Fin cfg1.N) (i : S50000x2.Idx) :
    i ∈ ((cfg1.win 2).blk t).view.set ↔ ∀ a : Fin 2, win1_2.index t a * S400x2.size a ≤ (i a).val ∧ (i a).val < win1_2.index t a * S400x2.size a + S400x2.size a := by
  show i ∈ ((View.whole main_v60).slice (win1_2.rect t)).set ↔ _
  rw [View.set_slice_whole, Rect.mem_set_unit]
  exact Iff.rfl

/-- Row `r` of the output is written back by point `r / 400`. -/
theorem cover1 (i : S50000x2.Idx) :
    ∃ t : Fin cfg1.N, (cfg1.win 2).flush t = true ∧ i ∈ ((cfg1.win 2).blk t).view.set := by
  have hi0 : (i 0).val < 50000 := (i 0).isLt
  have hi1 : (i 1).val < 2 := (i 1).isLt
  have hN : cfg1.N = 125 := N_1
  have hlt : (i 0).val / 400 < cfg1.N := by rw [hN]; omega
  obtain ⟨e0, e1, e2, e3, e4, e5⟩ := blocks1 ⟨(i 0).val / 400, hlt⟩
  have e4' : win1_2.index ⟨(i 0).val / 400, hlt⟩ (0 : Fin 2) = (i 0).val / 400 := e4
  refine ⟨⟨(i 0).val / 400, hlt⟩, flush1_2 _, ?_⟩
  rw [mem_blk1]
  intro a
  match a with
  | ⟨0, _⟩ =>
    show win1_2.index ⟨(i 0).val / 400, hlt⟩ (0 : Fin 2) * 400 ≤ (i 0).val ∧ (i 0).val < win1_2.index ⟨(i 0).val / 400, hlt⟩ (0 : Fin 2) * 400 + 400
    omega
  | ⟨1, _⟩ =>
    show win1_2.index ⟨(i 0).val / 400, hlt⟩ (1 : Fin 2) * 2 ≤ (i 1).val ∧ (i 1).val < win1_2.index ⟨(i 0).val / 400, hlt⟩ (1 : Fin 2) * 2 + 2
    omega

/-- After region 1 its output array is the whole product of the two arrays it found. -/
theorem final1 (c : Dev nD) :
    (dat1 V c).arrAt 2 cfg1.N = Cert.Bridge.hostProd2 (V c main_v59) (V c main_arg4) :=
  (dat1 V c).arrAt_eq_of_cover 2 _ (fun t _ => flushed1_eq V c t) cover1

end Cert.KernelIdeal.RegionValue

end
-- ==== Proof.RegionOp.lean ====
/-
  Each region acts on the buffers as one host operation.

  A region changes one buffer, its output array, and that array ends at the product of the two arrays the region reads
  (its left and right operands, which it leaves as they were). A host `dot_general` of those two buffers into that
  buffer changes the buffers in exactly the same way. So the contents at the end of the kernel's program are the launch
  memory taken through host operations only: the program's own stretches, with a whole-array product where each region
  stood.
-/
import proofs.«120091_j40054865002827_1_alg».proof.Proof.Gen.KernelIdeal.Frame
import proofs.«120091_j40054865002827_1_alg».proof.Proof.RegionValue
import Idealize.ShloMosaic.Lib.StableHlo.Run

set_option maxRecDepth 16384

noncomputable section

namespace Cert.KernelIdeal.RunValue

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-- The first layer's product as an operation on the kernel program's buffers. -/
abbrev prodOp1 : HloOp τ sig (Elt Ideal) :=
  binary main_arg0 main_arg2 main_v4 ((fun l r => Cert.Bridge.hostProd1 l r) : (⟨S50000x4000, .f32⟩ : BufTy).Contents (Elt Ideal) → (⟨S4000x16, .f32⟩ : BufTy).Contents (Elt Ideal) → (⟨S50000x16, .f32⟩ : BufTy).Contents (Elt Ideal))

/-- The second layer's product as an operation on the kernel program's buffers. -/
abbrev prodOp2 : HloOp τ sig (Elt Ideal) :=
  binary main_v59 main_arg4 main_v60 ((fun l r => Cert.Bridge.hostProd2 l r) : (⟨S50000x16, .f32⟩ : BufTy).Contents (Elt Ideal) → (⟨S16x2, .f32⟩ : BufTy).Contents (Elt Ideal) → (⟨S50000x2, .f32⟩ : BufTy).Contents (Elt Ideal))

/-- Region 0 leaves the buffers as the first product's operation would. -/
theorem W2_eq (c : Dev nD) : W2 m ρ c = prodOp1.result (W1 m ρ c) := by
  funext b
  by_cases hb : b = Proc.devRef .tc main_v4
  · subst hb
    rw [binary_result]
    exact (W2_arr m ρ c 2).trans (RegionValue.final0 (V1 m ρ) c)
  · rw [HloOp.result_of_not_mem _ _ (by rw [binary_writes, Finset.mem_singleton]; exact hb)]
    by_cases hw : ∃ w, Proc.devRef .tc (Pipeline.arrRef spec0 w) = b
    · obtain ⟨w, rfl⟩ := hw
      rw [W2_arr]
      rcases w with ⟨_ | _ | _ | w, hw⟩
      · exact ((dat0 (V1 m ρ) c).arrAt_in 0 rfl _).trans (A_eq0 (V1 m ρ) c 0)
      · exact ((dat0 (V1 m ρ) c).arrAt_in 1 rfl _).trans (A_eq0 (V1 m ρ) c 1)
      · exact absurd rfl hb
      · omega
    · unfold W2 Pipeline.withArrays
      rw [dif_neg hw]

/-- Region 1 leaves the buffers as the second product's operation would. -/
theorem W5_eq (c : Dev nD) : W5 m ρ c = prodOp2.result (W4 m ρ c) := by
  funext b
  by_cases hb : b = Proc.devRef .tc main_v60
  · subst hb
    rw [binary_result]
    exact (W5_arr m ρ c 2).trans (RegionValue.final1 (V4 m ρ) c)
  · rw [HloOp.result_of_not_mem _ _ (by rw [binary_writes, Finset.mem_singleton]; exact hb)]
    by_cases hw : ∃ w, Proc.devRef .tc (Pipeline.arrRef spec1 w) = b
    · obtain ⟨w, rfl⟩ := hw
      rw [W5_arr]
      rcases w with ⟨_ | _ | _ | w, hw⟩
      · exact ((dat1 (V4 m ρ) c).arrAt_in 0 rfl _).trans (A_eq1 (V4 m ρ) c 0)
      · exact ((dat1 (V4 m ρ) c).arrAt_in 1 rfl _).trans (A_eq1 (V4 m ρ) c 1)
      · exact absurd rfl hb
      · omega
    · unfold W5 Pipeline.withArrays
      rw [dif_neg hw]

/-- The contents at the end of the kernel's program, step by step from the launch memory: the split of the edge list,
    the first product, the first layer's two stretches, the second product, the second layer's two stretches. -/
theorem W7_steps (c : Dev nD) :
    W7 m ρ c = after hostOps2_1 (after hostOps2 (prodOp2.result
      (after hostOps1_1 (after hostOps1 (prodOp1.result (after hostOps0 (W0 m ρ c))))))) := by
  show after hostOps2_1 (after hostOps2 (W5 m ρ c)) = _
  rw [W5_eq]
  show after hostOps2_1 (after hostOps2 (prodOp2.result (after hostOps1_1 (after hostOps1 (W2 m ρ c))))) = _
  rw [W2_eq]

end Cert.KernelIdeal.RunValue

end
-- ==== Proof.Stages.lean ====
/-
  The two programs, step by step.

  With each kernel region read as a whole-array product, both programs are the same five steps: split the edge list into
  its source and destination rows; multiply the features by the first weights; aggregate the first layer (degrees,
  their inverse square roots, the normalised messages gathered along the edges and scatter-added at their destinations,
  the self-loop term, the bias, the rectifier); multiply by the second weights; aggregate the second layer and take the
  log-softmax of each row. Each step reads a handful of buffers and writes one that later steps use. If the two
  programs' buffers agree on what a step reads, they agree on what it writes: the step is the same operations on both
  sides, and the products are the same function. Agreement on the six arguments at launch therefore reaches the result.
-/
import proofs.«120091_j40054865002827_1_alg».proof.Proof.RegionOp
import proofs.«120091_j40054865002827_1_alg».proof.Proof.RefRun

set_option maxRecDepth 65536

noncomputable section

namespace Cert.Bridge

open Idealize.ShloMosaic Idealize.ShloMosaic.TcCoe Idealize.ShloMosaic.StableHlo
open Idealize.SL.Sem

/-! ## The reference's line, cut at its two products -/

/-- The split of the edge list: the reference's first four operations. -/
def refPre : List (HloOp Cert.ReferenceIdeal.τ Cert.ReferenceIdeal.sig (Elt Ideal)) := (Cert.ReferenceIdeal.ValueP.ops (F := Ideal)).take 4

/-- The first layer's product. -/
def refDot1 : HloOp Cert.ReferenceIdeal.τ Cert.ReferenceIdeal.sig (Elt Ideal) :=
  binary Cert.ReferenceIdeal.main_arg0 Cert.ReferenceIdeal.main_arg2 Cert.ReferenceIdeal.main_v4 ((fun l r => hostProd1 l r) : (⟨Cert.ReferenceIdeal.S50000x4000, .f32⟩ : BufTy).Contents (Elt Ideal) → (⟨Cert.ReferenceIdeal.S4000x16, .f32⟩ : BufTy).Contents (Elt Ideal) → (⟨Cert.ReferenceIdeal.S50000x16, .f32⟩ : BufTy).Contents (Elt Ideal))

/-- The first layer's aggregation, bias and rectifier: 72 operations. -/
def refMid : List (HloOp Cert.ReferenceIdeal.τ Cert.ReferenceIdeal.sig (Elt Ideal)) := ((Cert.ReferenceIdeal.ValueP.ops (F := Ideal)).drop 5).take 72

/-- The second layer's product. -/
def refDot2 : HloOp Cert.ReferenceIdeal.τ Cert.ReferenceIdeal.sig (Elt Ideal) :=
  binary Cert.ReferenceIdeal.main_v59 Cert.ReferenceIdeal.main_arg4 Cert.ReferenceIdeal.main_v60 ((fun l r => hostProd2 l r) : (⟨Cert.ReferenceIdeal.S50000x16, .f32⟩ : BufTy).Contents (Elt Ideal) → (⟨Cert.ReferenceIdeal.S16x2, .f32⟩ : BufTy).Contents (Elt Ideal) → (⟨Cert.ReferenceIdeal.S50000x2, .f32⟩ : BufTy).Contents (Elt Ideal))

/-- The second layer's aggregation, bias and log-softmax: 84 operations. -/
def refTail : List (HloOp Cert.ReferenceIdeal.τ Cert.ReferenceIdeal.sig (Elt Ideal)) := (Cert.ReferenceIdeal.ValueP.ops (F := Ideal)).drop 78

/-- The reference's line is those five pieces in order. -/
theorem ref_cut : Cert.ReferenceIdeal.ValueP.ops (F := Ideal) = refPre ++ refDot1 :: (refMid ++ refDot2 :: refTail) := rfl

/-- Folding two lines one after the other is folding their concatenation. -/
theorem after_append_ref (l₁ l₂ : List (HloOp Cert.ReferenceIdeal.τ Cert.ReferenceIdeal.sig (Elt Ideal))) (V : Valuation Cert.ReferenceIdeal.τ Cert.ReferenceIdeal.sig (Elt Ideal)) :
    after (l₁ ++ l₂) V = after l₂ (after l₁ V) := by
  induction l₁ generalizing V with
  | nil => rfl
  | cons op l ih => exact ih (op.result V)

/-- The reference's fold, step by step. -/
theorem ref_fold (V : Valuation Cert.ReferenceIdeal.τ Cert.ReferenceIdeal.sig (Elt Ideal)) :
    after (Cert.ReferenceIdeal.ValueP.ops (F := Ideal)) V = after refTail (refDot2.result (after refMid (refDot1.result (after refPre V)))) := by
  rw [ref_cut, after_append_ref refPre, after_cons refDot1, after_append_ref refMid, after_cons refDot2]

/-! ## What the two programs' buffers agree on between the steps -/

/-- At launch: the six arguments. -/
structure AgreeArgs (VK : Valuation Cert.KernelIdeal.τ Cert.KernelIdeal.sig (Elt Ideal)) (VR : Valuation Cert.ReferenceIdeal.τ Cert.ReferenceIdeal.sig (Elt Ideal)) : Prop where
  a0 : VR (Proc.devRef .tc Cert.ReferenceIdeal.main_arg0) = VK (Proc.devRef .tc Cert.KernelIdeal.main_arg0)
  a1 : VR (Proc.devRef .tc Cert.ReferenceIdeal.main_arg1) = VK (Proc.devRef .tc Cert.KernelIdeal.main_arg1)
  a2 : VR (Proc.devRef .tc Cert.ReferenceIdeal.main_arg2) = VK (Proc.devRef .tc Cert.KernelIdeal.main_arg2)
  a3 : VR (Proc.devRef .tc Cert.ReferenceIdeal.main_arg3) = VK (Proc.devRef .tc Cert.KernelIdeal.main_arg3)
  a4 : VR (Proc.devRef .tc Cert.ReferenceIdeal.main_arg4) = VK (Proc.devRef .tc Cert.KernelIdeal.main_arg4)
  a5 : VR (Proc.devRef .tc Cert.ReferenceIdeal.main_arg5) = VK (Proc.devRef .tc Cert.KernelIdeal.main_arg5)

/-- After the split: the source and destination rows, and the arguments still to be read. -/
structure AgreeSplit (VK : Valuation Cert.KernelIdeal.τ Cert.KernelIdeal.sig (Elt Ideal)) (VR : Valuation Cert.ReferenceIdeal.τ Cert.ReferenceIdeal.sig (Elt Ideal)) : Prop where
  src : VR (Proc.devRef .tc Cert.ReferenceIdeal.main_v1) = VK (Proc.devRef .tc Cert.KernelIdeal.main_v1)
  dst : VR (Proc.devRef .tc Cert.ReferenceIdeal.main_v3) = VK (Proc.devRef .tc Cert.KernelIdeal.main_v3)
  a0 : VR (Proc.devRef .tc Cert.ReferenceIdeal.main_arg0) = VK (Proc.devRef .tc Cert.KernelIdeal.main_arg0)
  a2 : VR (Proc.devRef .tc Cert.ReferenceIdeal.main_arg2) = VK (Proc.devRef .tc Cert.KernelIdeal.main_arg2)
  a3 : VR (Proc.devRef .tc Cert.ReferenceIdeal.main_arg3) = VK (Proc.devRef .tc Cert.KernelIdeal.main_arg3)
  a4 : VR (Proc.devRef .tc Cert.ReferenceIdeal.main_arg4) = VK (Proc.devRef .tc Cert.KernelIdeal.main_arg4)
  a5 : VR (Proc.devRef .tc Cert.ReferenceIdeal.main_arg5) = VK (Proc.devRef .tc Cert.KernelIdeal.main_arg5)

/-- After the first product: the rows, the product, and the arguments still to be read. -/
structure AgreeProd1 (VK : Valuation Cert.KernelIdeal.τ Cert.KernelIdeal.sig (Elt Ideal)) (VR : Valuation Cert.ReferenceIdeal.τ Cert.ReferenceIdeal.sig (Elt Ideal)) : Prop where
  src : VR (Proc.devRef .tc Cert.ReferenceIdeal.main_v1) = VK (Proc.devRef .tc Cert.KernelIdeal.main_v1)
  dst : VR (Proc.devRef .tc Cert.ReferenceIdeal.main_v3) = VK (Proc.devRef .tc Cert.KernelIdeal.main_v3)
  h : VR (Proc.devRef .tc Cert.ReferenceIdeal.main_v4) = VK (Proc.devRef .tc Cert.KernelIdeal.main_v4)
  a3 : VR (Proc.devRef .tc Cert.ReferenceIdeal.main_arg3) = VK (Proc.devRef .tc Cert.KernelIdeal.main_arg3)
  a4 : VR (Proc.devRef .tc Cert.ReferenceIdeal.main_arg4) = VK (Proc.devRef .tc Cert.KernelIdeal.main_arg4)
  a5 : VR (Proc.devRef .tc Cert.ReferenceIdeal.main_arg5) = VK (Proc.devRef .tc Cert.KernelIdeal.main_arg5)

/-- After the first layer: the rows, the hidden features, and the arguments still to be read. -/
structure AgreeLayer1 (VK : Valuation Cert.KernelIdeal.τ Cert.KernelIdeal.sig (Elt Ideal)) (VR : Valuation Cert.ReferenceIdeal.τ Cert.ReferenceIdeal.sig (Elt Ideal)) : Prop where
  src : VR (Proc.devRef .tc Cert.ReferenceIdeal.main_v1) = VK (Proc.devRef .tc Cert.KernelIdeal.main_v1)
  dst : VR (Proc.devRef .tc Cert.ReferenceIdeal.main_v3) = VK (Proc.devRef .tc Cert.KernelIdeal.main_v3)
  x : VR (Proc.devRef .tc Cert.ReferenceIdeal.main_v59) = VK (Proc.devRef .tc Cert.KernelIdeal.main_v59)
  a4 : VR (Proc.devRef .tc Cert.ReferenceIdeal.main_arg4) = VK (Proc.devRef .tc Cert.KernelIdeal.main_arg4)
  a5 : VR (Proc.devRef .tc Cert.ReferenceIdeal.main_arg5) = VK (Proc.devRef .tc Cert.KernelIdeal.main_arg5)

/-- After the second product: the rows, the product, and the last bias. -/
structure AgreeProd2 (VK : Valuation Cert.KernelIdeal.τ Cert.KernelIdeal.sig (Elt Ideal)) (VR : Valuation Cert.ReferenceIdeal.τ Cert.ReferenceIdeal.sig (Elt Ideal)) : Prop where
  src : VR (Proc.devRef .tc Cert.ReferenceIdeal.main_v1) = VK (Proc.devRef .tc Cert.KernelIdeal.main_v1)
  dst : VR (Proc.devRef .tc Cert.ReferenceIdeal.main_v3) = VK (Proc.devRef .tc Cert.KernelIdeal.main_v3)
  h : VR (Proc.devRef .tc Cert.ReferenceIdeal.main_v60) = VK (Proc.devRef .tc Cert.KernelIdeal.main_v60)
  a5 : VR (Proc.devRef .tc Cert.ReferenceIdeal.main_arg5) = VK (Proc.devRef .tc Cert.KernelIdeal.main_arg5)

variable {VK : Valuation Cert.KernelIdeal.τ Cert.KernelIdeal.sig (Elt Ideal)} {VR : Valuation Cert.ReferenceIdeal.τ Cert.ReferenceIdeal.sig (Elt Ideal)}

/-! ## The steps -/

/-- The split reads the edge list only; the two programs take the same two rows of it. -/
theorem split_step (h : AgreeArgs VK VR) : AgreeSplit (after Cert.KernelIdeal.Gen.hostOps0 VK) (after refPre VR) := by
  obtain ⟨h0, h1, h2, h3, h4, h5⟩ := h
  unfold refPre
  simp only [Cert.ReferenceIdeal.ValueP.ops, List.take_succ_cons, List.take_zero]
  refine ⟨?_, ?_, ?_, ?_, ?_, ?_, ?_⟩ <;> after_results_simp
  · rw [h1]; rfl
  · rw [h1]; rfl
  · exact h0
  · exact h2
  · exact h3
  · exact h4
  · exact h5

/-- The first product: the same function of the features and the first weights on both sides. -/
theorem prod1_step (h : AgreeSplit VK VR) : AgreeProd1 (Cert.KernelIdeal.RunValue.prodOp1.result VK) (refDot1.result VR) := by
  obtain ⟨hs, hd, h0, h2, h3, h4, h5⟩ := h
  unfold refDot1
  refine ⟨?_, ?_, ?_, ?_, ?_, ?_⟩ <;> simp (disch := decide) only [binary_result', binary_result_ne']
  · exact hs
  · exact hd
  · rw [h0, h2]
  · exact h3
  · exact h4
  · exact h5

set_option maxHeartbeats 64800000 in
/-- The first layer: from the same rows, product and bias the two programs compute the same hidden features. -/
theorem layer1_step (h : AgreeProd1 VK VR) :
    AgreeLayer1 (after Cert.KernelIdeal.Gen.hostOps1_1 (after Cert.KernelIdeal.Gen.hostOps1 VK)) (after refMid VR) := by
  obtain ⟨hs, hd, hh, h3, h4, h5⟩ := h
  unfold refMid
  simp only [Cert.ReferenceIdeal.ValueP.ops, List.drop_succ_cons, List.drop_zero, List.take_succ_cons, List.take_zero]
  refine ⟨?_, ?_, ?_, ?_, ?_⟩ <;> after_results_simp
  · exact hs
  · exact hd
  · rw [hs, hd, hh, h3]; rfl
  · exact h4
  · exact h5

/-- The second product: the same function of the hidden features and the second weights on both sides. -/
theorem prod2_step (h : AgreeLayer1 VK VR) : AgreeProd2 (Cert.KernelIdeal.RunValue.prodOp2.result VK) (refDot2.result VR) := by
  obtain ⟨hs, hd, hx, h4, h5⟩ := h
  unfold refDot2
  refine ⟨?_, ?_, ?_, ?_⟩ <;> simp (disch := decide) only [binary_result', binary_result_ne']
  · exact hs
  · exact hd
  · rw [hx, h4]
  · exact h5

set_option maxHeartbeats 64800000 in
/-- The second layer and the log-softmax: from the same rows, product and bias, the same result. -/
theorem layer2_step (h : AgreeProd2 VK VR) :
    after refTail VR (Proc.devRef .tc Cert.ReferenceIdeal.main_v115)
      = after Cert.KernelIdeal.Gen.hostOps2_1 (after Cert.KernelIdeal.Gen.hostOps2 VK) (Proc.devRef .tc Cert.KernelIdeal.main_v115) := by
  obtain ⟨hs, hd, hh, h5⟩ := h
  unfold refTail
  simp only [Cert.ReferenceIdeal.ValueP.ops, List.drop_succ_cons, List.drop_zero]
  after_results_simp
  rw [hs, hd, hh, h5]; rfl

/-! ## From launch to result -/

/-- From memories that agree on the six arguments, the reference's line folded over its launch memory and the
    kernel's program leave the same result array. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.ValueP.ops (F := Ideal)) (launchContents m' c) (Proc.devRef .tc Cert.ReferenceIdeal.main_v115)
      = Cert.KernelIdeal.Gen.W7 m ρ c (Proc.devRef .tc Cert.KernelIdeal.main_v115) := by
  rw [ref_fold, Cert.KernelIdeal.RunValue.W7_steps]
  exact layer2_step (prod2_step (layer1_step (prod1_step (split_step ⟨h0, h1, h2, h3, h4, h5⟩))))

end Cert.Bridge

end
-- ==== Proof.ReferenceRun.lean ====
/-
  The reference program's run, with its result as a fold.

  The reference is a straight line of host operations. From any memory, every weakly fair execution ends with each of
  its buffers at the fold of the line over the launch memory: the result array at the fold's value there, the six
  arguments — which no operation writes — as launched.
-/
import proofs.«120091_j40054865002827_1_alg».proof.Proof.RefRun
import Idealize.ShloMosaic.PureOps.Ideal

noncomputable section

namespace Cert.Bridge

open Idealize.ShloMosaic Idealize.ShloMosaic.TcCoe Idealize.ShloMosaic.StableHlo
open Idealize.SL.Sem
open Cert.ReferenceIdeal Cert.ReferenceIdeal.Gen

set_option maxRecDepth 65536 in
set_option maxHeartbeats 64800000 in
/-- Every weakly fair execution of the reference ends with the result array at the line's fold over the launch
    memory and the six arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v115)
        = after (ValueP.ops (F := Ideal)) (launchContents m c) (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨h c main_v115,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq ValueP.scopedRefs_eq ValueP.scopedSems_eq (defs (F := Ideal)) (main (F := Ideal)) (fun _ => ValueP.ops (F := Ideal))
      (ValueP.main_eq (F := Ideal)) (fun _ => ValueP.ops_sub (F := Ideal)) m ρ)

end Cert.Bridge

end
-- ==== Proof.lean ====
/-
  A two-layer graph convolution, kernel against reference, over the extended reals.

  Both programs compute log_softmax (conv₂ (relu (conv₁ x))), where a layer is
    conv (h) = scatter-add over edges of (dinv[src] · dinv[dst]) · (h W)[src] + dinv² · (h W) + b,
  dinv = (in-degree + 1)^(-1/2). They differ in one place only: the reference forms h W by one product of the whole
  arrays, the kernel by a matrix-unit kernel that takes 400 rows of h at a time, changes their and the weights' float
  format and accumulates the block's product from zero. Over the extended reals a change of float format is the identity
  and either product's entry (p, q) is the finite sum Σ n, h (p, n) · W (n, q), so each kernel region leaves in its
  output array exactly the whole product (Proof/Products.lean, Proof/RegionValue.lean). A region therefore changes the
  program's buffers as one whole-array product operation would (Proof/RegionOp.lean), and then the two programs are the
  same five steps — split the edge list, multiply, aggregate, multiply, aggregate and normalise — each writing the same
  function of what it reads, so agreement on the arguments at launch reaches the result (Proof/Stages.lean). No law of
  the extended reals beyond this reading is used, so the finiteness of the inputs is never opened.

  The three frames: the two kernel programs' are the generated frame certificates; the reference's is its run with the
  result dropped. The idealization rewrote nothing, so that conjunct is `True`.
-/
import proofs.«120091_j40054865002827_1_alg».proof.Defs
import proofs.«120091_j40054865002827_1_alg».proof.Proof.Gen.Kernel
import proofs.«120091_j40054865002827_1_alg».proof.Proof.Gen.Kernel.Frame
import proofs.«120091_j40054865002827_1_alg».proof.Proof.Gen.KernelIdeal
import proofs.«120091_j40054865002827_1_alg».proof.Proof.Gen.KernelIdeal.Frame
import proofs.«120091_j40054865002827_1_alg».proof.Proof.Gen.ReferenceIdeal
import proofs.«120091_j40054865002827_1_alg».proof.Proof.Gen.Pre_finite_inputs
import proofs.«120091_j40054865002827_1_alg».proof.Proof.KernelRun
import proofs.«120091_j40054865002827_1_alg».proof.Proof.Stages
import proofs.«120091_j40054865002827_1_alg».proof.Proof.ReferenceRun

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.Bridge.ref_run m ρ)

/-- The idealization rewrote no operation. -/
theorem preserves : Cert.preserves_Kernel_KernelIdeal := trivial

/-- From memories that agree on the arguments both programs end, with the same result array: the kernel's is what its
    seven stretches leave at the result buffer, the reference's the fold of its line there, and step by step the two
    agree. -/
theorem algebraic : Cert.algebraic_KernelIdeal_ReferenceIdeal := by
  intro m ρ m' ρ' _ hagree
  refine ⟨fun c => Cert.KernelIdeal.Gen.W7 m ρ c (Proc.devRef .tc Cert.KernelIdeal.main_v115),
    Cert.KernelIdeal.RunValue.run (F := Ideal) m ρ, ?_⟩
  refine (θ_run Cert.ReferenceIdeal.defs _ _).mono (fun _ h c => ⟨(h c).1.trans ?_, (h c).2⟩)
    (Cert.Bridge.ref_run m' ρ')
  exact Cert.Bridge.result_eq m ρ m' c (hagree c).1 (hagree c).2.1 (hagree c).2.2.1 (hagree c).2.2.2.1
    (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
